-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S10000x128 : Shape := ⟨2, ![10000, 128]⟩
abbrev S1600000x128 : Shape := ⟨2, ![1600000, 128]⟩
abbrev S100000x40 : Shape := ⟨2, ![100000, 40]⟩
abbrev S10000x1 : Shape := ⟨2, ![10000, 1]⟩
abbrev S10000x40 : Shape := ⟨2, ![10000, 40]⟩
abbrev S1x128 : Shape := ⟨2, ![1, 128]⟩
abbrev S1600000x40 : Shape := ⟨2, ![1600000, 40]⟩
abbrev S2000x40 : Shape := ⟨2, ![2000, 40]⟩
abbrev S2000x1 : Shape := ⟨2, ![2000, 1]⟩
abbrev S1x40 : Shape := ⟨2, ![1, 40]⟩

abbrev nBuf : Space → Nat
  | .hbm => 78
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S100000, .f32⟩
  | .hbm, ⟨40, _⟩ => ⟨S100000x1, .f32⟩
  | .hbm, ⟨41, _⟩ => ⟨S100000x128, .bf16⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .bf16⟩
  | .hbm, ⟨51, _⟩ => ⟨S1600000x128, .f32⟩
  | .hbm, ⟨52, _⟩ => ⟨S1600000x1, .f32⟩
  | .hbm, ⟨53, _⟩ => ⟨S1600000x128, .f32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x40, .bf16⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x40, .bf16⟩
  | .hbm, ⟨69, _⟩ => ⟨S1600000x40, .f32⟩
  | .hbm, ⟨70, _⟩ => ⟨S1600000x1, .f32⟩
  | .hbm, ⟨71, _⟩ => ⟨S1600000x40, .f32⟩
  | .hbm, ⟨72, _⟩ => ⟨S1600000x40, .f32⟩
  | .hbm, ⟨73, _⟩ => ⟨S_, .f32⟩
  | .hbm, ⟨74, _⟩ => ⟨S100000x40, .f32⟩
  | .hbm, ⟨75, _⟩ => ⟨S1600000x1, .i32⟩
  | .hbm, ⟨76, _⟩ => ⟨S100000x40, .f32⟩
  | .hbm, ⟨77, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .bf16⟩
  | .local _ .vmem, ⟨4, _⟩ => ⟨S10000x128, .bf16⟩
  | .local _ .vmem, ⟨5, _⟩ => ⟨S10000x128, .f32⟩
  | .local _ .vmem, ⟨6, _⟩ => ⟨S10000x128, .f32⟩
  | .local _ .vmem, ⟨7, _⟩ => ⟨S10000x128, .bf16⟩
  | .local _ .vmem, ⟨8, _⟩ => ⟨S10000x128, .bf16⟩
  | .local _ .vmem, ⟨9, _⟩ => ⟨S10000x1, .f32⟩
  | .local _ .vmem, ⟨10, _⟩ => ⟨S10000x1, .f32⟩
  | .local _ .vmem, ⟨11, _⟩ => ⟨S128, .f32⟩
  | .local _ .vmem, ⟨12, _⟩ => ⟨S128x40, .f32⟩
  | .local _ .vmem, ⟨13, _⟩ => ⟨S10000x40, .bf16⟩
  | .local _ .vmem, ⟨14, _⟩ => ⟨S10000x40, .bf16⟩
  | .local _ .vmem, ⟨15, _⟩ => ⟨S2000x40, .f32⟩
  | .local _ .vmem, ⟨16, _⟩ => ⟨S2000x40, .f32⟩
  | .local _ .vmem, ⟨17, _⟩ => ⟨S2000x40, .bf16⟩
  | .local _ .vmem, ⟨18, _⟩ => ⟨S2000x40, .bf16⟩
  | .local _ .vmem, ⟨19, _⟩ => ⟨S2000x1, .f32⟩
  | .local _ .vmem, ⟨20, _⟩ => ⟨S2000x1, .f32⟩
  | .local _ .vmem, ⟨21, _⟩ => ⟨S40, .f32⟩
  | .local _ .vmem, ⟨22, _⟩ => ⟨S2000x40, .f32⟩
  | .local _ .vmem, ⟨23, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x40 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x40 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x40 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S128_S128_0 : ∀ a, (![0] : Fin 1 → Nat) a + S128.size a ≤ S128.size a
  h_S128 : 0 < S128.numel
  broadcasts_S10000x1_S10000x128 : S10000x1.Broadcasts S10000x128
  shapeCasts_S128_S1x128 : S128.ShapeCasts S1x128
  broadcasts_S1x128_S10000x128 : S1x128.Broadcasts S10000x128
  inb_S128x40_S128x40_0_0 : ∀ a, (![0, 0] : Fin 2 → Nat) a + S128x40.size a ≤ S128x40.size a
  h_S128x40 : 0 < S128x40.numel
  inb_S10000x40_S10000x40_0_0 : ∀ a, (![0, 0] : Fin 2 → Nat) a + S10000x40.size a ≤ S10000x40.size a
  h_S10000x40 : 0 < S10000x40.numel
  packedbf16_S10000x40_S10000x40_0_0 : (Rect.unit (s := S10000x40) ![0, 0] S10000x40.size inb_S10000x40_S10000x40_0_0).PackedRows (EltTy.packing .bf16)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  inb_S2000x40_S2000x40_0_0 : ∀ a, (![0, 0] : Fin 2 → Nat) a + S2000x40.size a ≤ S2000x40.size a
  h_S2000x40 : 0 < S2000x40.numel
  shapeCasts_S2000x40_S2000x40 : S2000x40.ShapeCasts S2000x40
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x40 : S2000x1.Broadcasts S2000x40
  inb_S40_S40_0 : ∀ a, (![0] : Fin 1 → Nat) a + S40.size a ≤ S40.size a
  h_S40 : 0 < S40.numel
  shapeCasts_S40_S1x40 : S40.ShapeCasts S1x40
  broadcasts_S1x40_S2000x40 : S1x40.Broadcasts S2000x40
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x40_S10000x40_1_0_0_1_n_n_wf : DotDims.WF S10000x128 S128x40 S10000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .bf16 = 32 ∨ (Rect.block (s := S100000x128) S10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .bf16 = 32 ∨ (Rect.block (s := S100000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x40.size a ≤ S128x40.size a
  hwx1_4 : ∀ i : grid1.Coords, EltTy.bits .f32 = 32 ∨ (Rect.block (s := S128x40) S128x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x40.size a ≤ S100000x40.size a
  hwx1_5 : ∀ i : grid1.Coords, EltTy.bits .bf16 = 32 ∨ (Rect.block (s := S100000x40) S10000x40.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x40.size a ≤ S100000x40.size a
  hwx2_0 : ∀ i : grid2.Coords, EltTy.bits .f32 = 32 ∨ (Rect.block (s := S100000x40) S2000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x40.size a ≤ S100000x40.size a
  hwx2_1 : ∀ i : grid2.Coords, EltTy.bits .bf16 = 32 ∨ (Rect.block (s := S100000x40) S2000x40.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S40.size a ≤ S40.size a
  hwx2_3 : ∀ i : grid2.Coords, EltTy.bits .f32 = 32 ∨ (Rect.block (s := S40) S40.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x40.size a ≤ S100000x40.size a
  hwx2_4 : ∀ i : grid2.Coords, EltTy.bits .f32 = 32 ∨ (Rect.block (s := S100000x40) S2000x40.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S10000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S2000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S2000x40.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S2000x40.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 95
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S100000, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S1600000x1, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x40, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x40, .f32⟩
  | .hbm, ⟨81, _⟩ => ⟨S1600000x1, .f32⟩
  | .hbm, ⟨82, _⟩ => ⟨S1600000x40, .f32⟩
  | .hbm, ⟨83, _⟩ => ⟨S1600000x40, .f32⟩
  | .hbm, ⟨84, _⟩ => ⟨S_, .f32⟩
  | .hbm, ⟨85, _⟩ => ⟨S100000x40, .f32⟩
  | .hbm, ⟨86, _⟩ => ⟨S1600000x1, .i32⟩
  | .hbm, ⟨87, _⟩ => ⟨S100000x40, .f32⟩
  | .hbm, ⟨88, _⟩ => ⟨S100000x1, .f32⟩
  | .hbm, ⟨89, _⟩ => ⟨S100000x40, .f32⟩
  | .hbm, ⟨90, _⟩ => ⟨S100000x40, .f32⟩
  | .hbm, ⟨91, _⟩ => ⟨S100000x40, .f32⟩
  | .hbm, ⟨92, _⟩ => ⟨S1x40, .f32⟩
  | .hbm, ⟨93, _⟩ => ⟨S100000x40, .f32⟩
  | .hbm, ⟨94, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_call0_cst : Ref sig .tc := ⟨.hbm, 68, rfl⟩
abbrev main_call0_v0 : Ref sig .tc := ⟨.hbm, 69, rfl⟩
abbrev main_v52 : Ref sig .tc := ⟨.hbm, 70, rfl⟩
abbrev main_v53 : Ref sig .tc := ⟨.hbm, 71, rfl⟩
abbrev main_c_8 : Ref sig .tc := ⟨.hbm, 72, rfl⟩
abbrev main_v54 : Ref sig .tc := ⟨.hbm, 73, rfl⟩
abbrev main_v55 : Ref sig .tc := ⟨.hbm, 74, rfl⟩
abbrev main_c_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_10 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KernelRun.lean ====
/-
  The kernel's run, with its result named.

  The program is three grids of blocks among stretches of whole-array operations. Its run from any memory ends, on every
  core, with the result array holding what the last grid's write-backs leave and with the six argument arrays as they were
  launched. What each boundary between stretches and grids holds is the fold `W0 … W6` of the generated frame module; this
  module only reads the result array, beside the arguments, off the final boundary.
-/
import proofs.«165699_j61048665145867_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the last boundary's
    contents `W6` and every argument array as launched. -/
theorem run_result : θ_run defs (onTc (τ := τ) (main (F := F))) ⟨m, fun _ => 0, ρ⟩ (fun r => ∀ c : Dev nD,
      r.2.mem ((c.tc : Thread nD τ).loc main_v58) = W6 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v58 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunValue

end
-- ==== Proof.LibProductIx.lean ====
/-
  A matrix product read at an entry, with the operand indices written by their coordinates.

  Two arrangements of dimension numbers, no batch axis in either:
  * [A, K] × [K, B] → [A, B], contracting the left factor's axis 1 with the right factor's axis 0:
    the sum over the contraction index at (p, q) is Σ_{k<K} l(p, k) · r(k, q);
  * [A, S, K] × [B, K] → [A, S, B], contracting the left factor's last axis with the right factor's axis 1 (the
    right factor used by rows: x · Wᵀ on every row of a stack of rows): the sum at (a, s, b) is
    Σ_{k<K} l(a, s, k) · r(b, k).
  So a product into a zero accumulator or a host dot_general is that sum, and reads one row of each factor.
  General: nothing here depends on a particular program. An instance supplies the kept coordinates (`hl0`, `hr1`, …: each is
  `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.LibProductIx

open Idealize.ShloMosaic Idealize.ShloMosaic.ValueIdx

/-- [A, K] × [K, B]: the sum over the contraction index at (p, q) is Σ_k l(p, k) · r(k, q). -/
theorem sum_rows_cols {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k :=
    funext fun a => Fin.ext (by
      match a with
      | ⟨0, _⟩ => exact hl0 (ix2 p q) _
      | ⟨1, _⟩ => exact (d.lhsIdx_val_of_single hlc (ix2 p q) _).trans hk)
  have er : d.rhsIdx (ix2 p q) ((contrEquiv1 d K hr hs).symm k) = ix2 k q :=
    funext fun a => Fin.ext (by
      match a with
      | ⟨0, _⟩ => exact (d.rhsIdx_val_of_single hrc (ix2 p q) _).trans hk
      | ⟨1, _⟩ => exact hr1 (ix2 p q) _)
  rw [el, er]

/-- [A, S, K] × [B, K]: the sum over the contraction index at (a, s, b) is Σ_k l(a, s, k) · r(b, k). -/
theorem sum_stack_rows {A S B K : Nat} {φ₁ φ₂ : FTy}
    (d : DotDims (⟨3, ![A, S, K]⟩ : Shape) (⟨2, ![B, K]⟩ : Shape) (⟨3, ![A, S, B]⟩ : Shape))
    (hr : d.contr.rank = 1) (hs : d.contr.size ⟨0, by omega⟩ = K)
    (hlc : d.lhsContracting = [(2 : Fin 3)]) (hrc : d.rhsContracting = [(1 : Fin 2)])
    (hl0 : ∀ (j : (⟨3, ![A, S, B]⟩ : Shape).Idx) (q : d.contr.Idx), (d.lhsIdx j q 0).val = (j 0).val)
    (hl1 : ∀ (j : (⟨3, ![A, S, B]⟩ : Shape).Idx) (q : d.contr.Idx), (d.lhsIdx j q 1).val = (j 1).val)
    (hr0 : ∀ (j : (⟨3, ![A, S, B]⟩ : Shape).Idx) (q : d.contr.Idx), (d.rhsIdx j q 0).val = (j 2).val)
    (l : FVec Ideal (⟨3, ![A, S, K]⟩ : Shape) φ₁) (r : FVec Ideal (⟨2, ![B, K]⟩ : Shape) φ₂) (a : Fin A) (s : Fin S) (b : Fin B) :
    ∑ c : d.contr.Idx, l (d.lhsIdx (ix3 a s b) c) * r (d.rhsIdx (ix3 a s b) c) = ∑ k : Fin K, l (ix3 a s k) * r (ix2 b k) := by
  rw [← Equiv.sum_comp (contrEquiv1 d K hr hs).symm]
  refine Finset.sum_congr rfl fun k _ => ?_
  have hk := contrEquiv1_symm_val d K hr hs k
  have el : d.lhsIdx (ix3 a s b) ((contrEquiv1 d K hr hs).symm k) = ix3 a s k :=
    funext fun c => Fin.ext (by
      match c with
      | ⟨0, _⟩ => exact hl0 (ix3 a s b) _
      | ⟨1, _⟩ => exact hl1 (ix3 a s b) _
      | ⟨2, _⟩ => exact (d.lhsIdx_val_of_single hlc (ix3 a s b) _).trans hk)
  have er : d.rhsIdx (ix3 a s b) ((contrEquiv1 d K hr hs).symm k) = ix2 b k :=
    funext fun c => Fin.ext (by
      match c with
      | ⟨0, _⟩ => exact hr0 (ix3 a s b) _
      | ⟨1, _⟩ => exact (d.rhsIdx_val_of_single hrc (ix3 a s b) _).trans hk)
  rw [el, er]

end Cert.LibProductIx

end
-- ==== Proof.LibPlainDot.lean ====
/-
  A product of two matrices whose dimension numbers are the plain ones — no batch axis, the left factor's axis 1
  contracted with the right factor's axis 0, the kept axes the left factor's rows and the right factor's columns —
  read at an entry (p, q): into the zero accumulator it is Σ_k l(p,k) · r(k,q). The two facts a reading needs about
  the kept coordinates (the left factor is read in row p, the right factor in column q) are proved here once from the
  dimension numbers' lists, for any record with those lists.
  General: nothing here depends on a particular program.
-/
import proofs.«165699_j61048665145867_2_alg».proof.Proof.LibProductIx

noncomputable section

open scoped BigOperators

namespace Cert.LibPlainDot

open Idealize.ShloMosaic Idealize.ShloMosaic.ValueIdx

variable {A B K : Nat}

/-- The left factor is read in the row of the result's entry. -/
theorem lhs_row (d : DotDims (⟨2, ![A, K]⟩ : Shape) (⟨2, ![K, B]⟩ : Shape) (⟨2, ![A, B]⟩ : Shape))
    (hlb : d.lhsBatch = []) (hln : d.lhsNonContracting = [(0 : Fin 2)])
    (j : (⟨2, ![A, B]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln])

/-- The right factor is read in the column of the result's entry. -/
theorem rhs_col (d : DotDims (⟨2, ![A, K]⟩ : Shape) (⟨2, ![K, B]⟩ : Shape) (⟨2, ![A, B]⟩ : Shape))
    (hlb : d.lhsBatch = []) (hln : d.lhsNonContracting = [(0 : Fin 2)])
    (hrb : d.rhsBatch = []) (hrn : d.rhsNonContracting = [(1 : Fin 2)])
    (j : (⟨2, ![A, B]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln, hrn])

/-- The contraction sum of a plain product at (p, q). -/
theorem sum_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) :=
  Cert.LibProductIx.sum_rows_cols d hr hs hlc hrc (lhs_row d hlb hln) (rhs_col d hlb hln hrb hrn) l r p q

/-- A plain product into the zero accumulator, at (p, q). -/
theorem matmul_zero_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (⟨2, ![A, B]⟩ : Shape) .f32 0x00000000#32) (ix2 p q)
      = ∑ k : Fin K, l (ix2 p k) * r (ix2 k q) := by
  rw [Ideal.matmul_constant_zero_apply]
  exact sum_at d hr hs hlc hrc hlb hln hrb hrn l r p q

/-- A host product with the plain dimension numbers, at (p, q). -/
theorem dotGeneral_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision) (sched : HostSchedule)
    (l : FVec Ideal (⟨2, ![A, K]⟩ : Shape) φ₁) (r : FVec Ideal (⟨2, ![K, B]⟩ : Shape) φ₂) (p : Fin A) (q : Fin B) :
    FloatOps.dotGeneral d prec sched l r (ix2 p q) = ∑ k : Fin K, l (ix2 p k) * r (ix2 k q) := by
  rw [Ideal.dotGeneral_apply]
  exact sum_at d hr hs hlc hrc hlb hln hrb hrn l r p q

end Cert.LibPlainDot

end
-- ==== Proof.Region0.lean ====
/-
  The first grid: a row-blocked product.

  Ten grid points; point t takes rows 10000·t … 10000·t + 9999 of the left factor [100000, 128] and the whole right factor
  [128, 128], and writes the same rows of the result. An entry (p, q) of the block's product is Σ_k l(p, k) · r(k, q): a row
  of the result depends on the same row of the left factor only, so the blocks written side by side are the rows of the
  whole product Σ_k x(i, k) · w(k, j), which is what a single whole-array product computes.
-/
import proofs.«165699_j61048665145867_2_alg».proof.Proof.Gen.KernelIdeal.Frame
import proofs.«165699_j61048665145867_2_alg».proof.Proof.Gen.ReferenceIdeal.Read
import proofs.«165699_j61048665145867_2_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Rows0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The block's product at an entry: the sum over the contraction index of the left block's row times the right factor's
    column (the changes of float format are the identity on extended reals). -/
theorem block_at (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  exact Cert.LibPlainDot.matmul_zero_at dot_S10000x128_S128x128_S10000x128_1_0_0_1_n_n rfl rfl rfl rfl rfl rfl rfl rfl none
    (truncf .bf16 x0 bitsLt_bf16_f32) (truncf .bf16 x1 bitsLt_bf16_f32) p q

theorem zero_offsets : (![0, 0] : Fin 2 → Nat) = fun _ => 0 := funext fun a => by fin_cases a <;> rfl

/-- Where the windows' blocks sit, decided over the ten points: the left factor's and the result's block at point t is
    block t of the rows, all columns; the right factor's is the whole array. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- What point t writes back is block t of the whole product of the arrays the grid finds. -/
theorem flushed_eq (c : Dev nD) (x0 : (⟨S100000x128, .f32⟩ : BufTy).Contents (Elt Ideal)) (x2 : (⟨S128x128, .f32⟩ : BufTy).Contents (Elt Ideal))
    (h0 : V c main_arg0 = x0) (h2 : V c main_arg2 = x2) (t : Fin cfg0.N) :
    (dat0 V c).flushed 2 t = ((cfg0.win 2).blk t).view.read (Elt Ideal) (Cert.ReferenceIdeal.Read.val_main_v31 (F := Ideal) x0 x2) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  obtain ⟨e0, e1, e2, e3, e4, e5⟩ := block_indices t
  funext j
  obtain ⟨p, q, rfl⟩ : ∃ (p : Fin 10000) (q : Fin 128), j = ix2 p q := ⟨j 0, j 1, eq_ix2 j⟩
  show k0_pay1 (F := Ideal) (iblk0 V c 0 t) (iblk0 V c 1 t) (ix2 p q)
    = Cert.ReferenceIdeal.Read.val_main_v31 (F := Ideal) x0 x2 (((cfg0.win 2).blk t).view.emb (ix2 p q))
  rw [block_at, Cert.ReferenceIdeal.Read.val_main_v31_apply]
  refine Finset.sum_congr rfl fun k _ => ?_
  have hl : iblk0 V c 0 t (ix2 p k)
      = x0 (Cert.ReferenceIdeal.Read.lidx_main_v31 (((cfg0.win 2).blk t).view.emb (ix2 p q)) k) := by
    show V c main_arg0 (((cfg0.win 0).blk t).view.emb (ix2 p k)) = _
    rw [h0]
    refine congrArg x0 (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have hr : iblk0 V c 1 t (ix2 k q)
      = x2 (Cert.ReferenceIdeal.Read.ridx_main_v31 (((cfg0.win 2).blk t).view.emb (ix2 p q)) k) := by
    show V c main_arg2 (((cfg0.win 1).blk t).view.emb (ix2 k q)) = _
    rw [h2]
    refine congrArg x2 (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [hl, hr]

/-- An entry is in point t's block iff its row is among the block's rows (the block has all the columns). -/
theorem mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v28).slice (win0_2.rect t)).set ↔ _
  rw [View.set_slice_whole, Rect.mem_set_unit]
  exact Iff.rfl

/-- Every entry of the result is in the block of the point its row's block names. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨e0, e1, e2, e3, e4, e5⟩ := block_indices t
  have ht : t.val = (i 0).val / 10000 := rfl
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the grid the result array holds the whole product of the two arrays the grid found. -/
theorem array_eq (c : Dev nD) (x0 : (⟨S100000x128, .f32⟩ : BufTy).Contents (Elt Ideal)) (x2 : (⟨S128x128, .f32⟩ : BufTy).Contents (Elt Ideal))
    (h0 : V c main_arg0 = x0) (h2 : V c main_arg2 = x2) :
    (dat0 V c).arrAt 2 cfg0.N = Cert.ReferenceIdeal.Read.val_main_v31 (F := Ideal) x0 x2 :=
  (dat0 V c).arrAt_eq_of_cover 2 _ (fun t _ => flushed_eq V c x0 x2 h0 h2 t) covered

end

end Cert.KernelIdeal.Rows0

end
-- ==== Proof.LibLayout.lean ====
/-
  A keepdims column read at an index. An array with one column, broadcast along its unit axis to `b` columns,
  holds at `(p, c)` the operand's entry in row `p`: every column is a copy of the one column.
-/
import Idealize.ShloMosaic.Lib.Pipeline.Value
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Region1.lean ====
/-
  The middle grid: the first layer's combination and the second product, row block by row block.

  Ten grid points; point t takes rows 10000·t … 10000·t + 9999 of the aggregated messages [100000, 128], of the first
  product [100000, 128] and of the self-loop column [100000, 1], the whole bias [128] and the whole second weight matrix
  [128, 40]. In the block it forms h(p, k) = max(agg(p, k) + xw(p, k) · s(p) + b(k), 0) and multiplies by the weights:
  entry (p, q) is Σ_k h(p, k) · w(k, q). A row of the result depends on the same row of the three row-blocked inputs only,
  so the blocks side by side are the rows of the whole array Σ_k h(i, k) · w(k, j).
-/
import proofs.«165699_j61048665145867_2_alg».proof.Proof.Gen.KernelIdeal.Frame
import proofs.«165699_j61048665145867_2_alg».proof.Proof.LibLayout
import proofs.«165699_j61048665145867_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Rows1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The first layer's output at an entry: the aggregate, plus the product entry scaled by its row's self-loop weight, plus
    its column's bias, clamped below at the f32 zero. -/
def hiddenAt (agg xw : (⟨2, ![100000, 128]⟩ : Shape).Idx → EReal) (s : (⟨1, ![100000]⟩ : Shape).Idx → EReal)
    (b : (⟨1, ![128]⟩ : Shape).Idx → EReal) (i : Fin 100000) (k : Fin 128) : EReal :=
  max ((agg (ix2 i k) + xw (ix2 i k) * s (ix1 i)) + b (ix1 k)) (Ideal.ofBits .f32 0x00000000#32)

/-- The whole second product, entry by entry. -/
def layered (agg xw : (⟨2, ![100000, 128]⟩ : Shape).Idx → EReal) (s : (⟨1, ![100000]⟩ : Shape).Idx → EReal)
    (b : (⟨1, ![128]⟩ : Shape).Idx → EReal) (w : (⟨2, ![128, 40]⟩ : Shape).Idx → EReal) : (⟨2, ![100000, 40]⟩ : Shape).Idx → EReal :=
  fun i => ∑ k : Fin 128, hiddenAt agg xw s b (⟨(i 0).val, idx2_lt0 i⟩ : Fin 100000) k * w (ix2 k (⟨(i 1).val, idx2_lt1 i⟩ : Fin 40))

/-- The block's clamped combination, before the product. -/
def hiddenBlock (v0 : Vec Ideal S10000x128 .f32) (v2 : Vec Ideal S10000x128 .bf16) (v5 : Vec Ideal S10000x1 .f32) (v7 : Vec Ideal S128 .f32) :
    FVec Ideal S10000x128 .f32 :=
  maximumf (addf (addf (shapeCast S10000x128 v0 shapeCasts_S10000x128_S10000x128)
      (mulf (extf .f32 (shapeCast S10000x128 v2 shapeCasts_S10000x128_S10000x128) bitsLt_bf16_f32)
        (broadcastTo S10000x128 (shapeCast S10000x1 v5 shapeCasts_S10000x1_S10000x1) broadcasts_S10000x1_S10000x128)))
      (broadcastTo S10000x128 (shapeCast S1x128 v7 shapeCasts_S128_S1x128) broadcasts_S1x128_S10000x128))
    (broadcast S10000x128 (Scalar.ofBits (F := Ideal) .f32 0x00000000#32))

/-- The block's clamped combination at an entry (the change of float format is the identity on extended reals; the recasts
    to the same shape do nothing). -/
theorem hiddenBlock_at (v0 : Vec Ideal S10000x128 .f32) (v2 : Vec Ideal S10000x128 .bf16) (v5 : Vec Ideal S10000x1 .f32) (v7 : Vec Ideal S128 .f32)
    (p : Fin 10000) (k : Fin 128) :
    hiddenBlock v0 v2 v5 v7 (ix2 p k)
      = max ((v0 (ix2 p k) + v2 (ix2 p k) * v5 (ix2 p (0 : Fin 1))) + v7 (ix1 k)) (Ideal.ofBits .f32 0x00000000#32) := by
  unfold hiddenBlock
  show max ((shapeCast S10000x128 v0 shapeCasts_S10000x128_S10000x128 (ix2 p k)
      + shapeCast S10000x128 v2 shapeCasts_S10000x128_S10000x128 (ix2 p k)
        * broadcastTo S10000x128 (shapeCast S10000x1 v5 shapeCasts_S10000x1_S10000x1) broadcasts_S10000x1_S10000x128 (ix2 p k))
      + broadcastTo S10000x128 (shapeCast S1x128 v7 shapeCasts_S128_S1x128) broadcasts_S1x128_S10000x128 (ix2 p k))
      (Ideal.ofBits .f32 0x00000000#32) = _
  rw [shapeCast_self, shapeCast_self, shapeCast_self, broadcastTo_a1_ab_apply, broadcastTo_1b_ab_apply, shapeCast_a_1a_apply]

/-- The block's product at an entry: the sum over the contraction index of the clamped combination's row times the weights'
    column. -/
theorem block_at (v0 : Vec Ideal S10000x128 .f32) (v2 : Vec Ideal S10000x128 .bf16) (v5 : Vec Ideal S10000x1 .f32) (v7 : Vec Ideal S128 .f32)
    (v17 : Vec Ideal S128x40 .f32) (p : Fin 10000) (q : Fin 40) :
    k1_pay1 (F := Ideal) v0 v2 v5 v7 v17 (ix2 p q) = ∑ k : Fin 128, hiddenBlock v0 v2 v5 v7 (ix2 p k) * v17 (ix2 k q) := by
  unfold k1_pay1
  exact Cert.LibPlainDot.matmul_zero_at dot_S10000x128_S128x40_S10000x40_1_0_0_1_n_n rfl rfl rfl rfl rfl rfl rfl rfl none
    (truncf .bf16 (hiddenBlock v0 v2 v5 v7) bitsLt_bf16_f32) (truncf .bf16 v17 bitsLt_bf16_f32) p q

theorem zero_offsets : (![0, 0] : Fin 2 → Nat) = fun _ => 0 := funext fun a => by fin_cases a <;> rfl
theorem zero_offset : (![0] : Fin 1 → Nat) = fun _ => 0 := funext fun a => by fin_cases a; rfl

/-- Where the windows' blocks sit, decided over the ten points: block t of the rows for the three row-blocked inputs and the
    result, the whole array for the bias and the weights. -/
theorem block_indices : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section
variable (V : (c : Dev nD) → (b : Ref sig .tc) → Buf (Elt Ideal) ((c : Thread nD τ).loc b))
variable (c : Dev nD)
  (agg xw : (⟨2, ![100000, 128]⟩ : Shape).Idx → EReal) (s : (⟨1, ![100000]⟩ : Shape).Idx → EReal)
  (b : (⟨1, ![128]⟩ : Shape).Idx → EReal) (w : (⟨2, ![128, 40]⟩ : Shape).Idx → EReal)

/-- What point t writes back is block t of the whole second product of the arrays the grid finds: the aggregated messages,
    the first product, the self-loop weights as a column, the bias, the weights. -/
theorem flushed_eq (hagg : V c main_v42 = agg) (hxw : V c main_v28 = xw)
    (hsn : ∀ p : Fin 100000, V c main_v27 (ix2 p (0 : Fin 1)) = s (ix1 p)) (hb : V c main_arg3 = b) (hw : V c main_arg4 = w)
    (t : Fin cfg1.N) :
    (dat1 V c).flushed 5 t = ((cfg1.win 5).blk t).view.read (Elt Ideal) (layered agg xw s b w) := by
  show (cfg1.win 5).cut (grid1.coords t) ((dat1 V c).after 5 t) = _
  rw [after1_5]
  unfold out1_5
  rw [View.canon_unit_zero zero_offsets]
  simp only [View.ld_unit_zero (S := S10000x128) zero_offsets, View.ld_unit_zero (S := S10000x1) zero_offsets,
    View.ld_unit_zero (S := S128) zero_offset, View.ld_unit_zero (S := S128x40) zero_offsets]
  obtain ⟨e0, e1, e2, e3, e4, e5, e6, e7, e8, e9, e10⟩ := block_indices t
  funext j
  obtain ⟨p, q, rfl⟩ : ∃ (p : Fin 10000) (q : Fin 40), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = layered agg xw s b w (((cfg1.win 5).blk t).view.emb (ix2 p q))
  have htl : t.val < 10 := lt_of_lt_of_eq t.isLt N_1
  have hrow : t.val * 10000 + p.val < 100000 := by have := p.isLt; omega
  have hemb : ((cfg1.win 5).blk t).view.emb (ix2 p q) = ix2 (⟨t.val * 10000 + p.val, hrow⟩ : Fin 100000) q := by
    funext a; apply Fin.ext
    match a with
    | ⟨0, _⟩ => show win1_5.index t (0 : Fin 2) * 10000 + 1 * p.val = t.val * 10000 + p.val; omega
    | ⟨1, _⟩ => show win1_5.index t (1 : Fin 2) * 40 + 1 * q.val = q.val; omega
  rw [block_at, hemb]
  show _ = ∑ k : Fin 128, hiddenAt agg xw s b (⟨t.val * 10000 + p.val, hrow⟩ : Fin 100000) k * w (ix2 k q)
  refine Finset.sum_congr rfl fun k _ => ?_
  have h1 : iblk1 V c 0 t (ix2 p k) = agg (ix2 (⟨t.val * 10000 + p.val, hrow⟩ : Fin 100000) k) := by
    show V c main_v42 (((cfg1.win 0).blk t).view.emb (ix2 p k)) = _
    rw [hagg]
    refine congrArg agg (funext fun a => Fin.ext ?_)
    match a with
    | ⟨0, _⟩ => show win1_0.index t (0 : Fin 2) * 10000 + 1 * p.val = t.val * 10000 + p.val; omega
    | ⟨1, _⟩ => show win1_0.index t (1 : Fin 2) * 128 + 1 * k.val = k.val; omega
  have h2 : iblk1 V c 1 t (ix2 p k) = xw (ix2 (⟨t.val * 10000 + p.val, hrow⟩ : Fin 100000) k) := by
    show V c main_v28 (((cfg1.win 1).blk t).view.emb (ix2 p k)) = _
    rw [hxw]
    refine congrArg xw (funext fun a => Fin.ext ?_)
    match a with
    | ⟨0, _⟩ => show win1_1.index t (0 : Fin 2) * 10000 + 1 * p.val = t.val * 10000 + p.val; omega
    | ⟨1, _⟩ => show win1_1.index t (1 : Fin 2) * 128 + 1 * k.val = k.val; omega
  have h3 : iblk1 V c 2 t (ix2 p (0 : Fin 1)) = s (ix1 (⟨t.val * 10000 + p.val, hrow⟩ : Fin 100000)) := by
    show V c main_v27 (((cfg1.win 2).blk t).view.emb (ix2 p (0 : Fin 1))) = _
    have e : ((cfg1.win 2).blk t).view.emb (ix2 p (0 : Fin 1)) = ix2 (⟨t.val * 10000 + p.val, hrow⟩ : Fin 100000) (0 : Fin 1) := by
      funext a; apply Fin.ext
      match a with
      | ⟨0, _⟩ => show win1_2.index t (0 : Fin 2) * 10000 + 1 * p.val = t.val * 10000 + p.val; omega
      | ⟨1, _⟩ => show win1_2.index t (1 : Fin 2) * 1 + 1 * 0 = 0; omega
    rw [e, hsn]
  have h4 : iblk1 V c 3 t (ix1 k) = b (ix1 k) := by
    show V c main_arg3 (((cfg1.win 3).blk t).view.emb (ix1 k)) = _
    rw [hb]
    refine congrArg b (funext fun a => Fin.ext ?_)
    match a with
    | ⟨0, _⟩ => show win1_3.index t (0 : Fin 1) * 128 + 1 * k.val = k.val; omega
  have h5 : iblk1 V c 4 t (ix2 k q) = w (ix2 k q) := by
    show V c main_arg4 (((cfg1.win 4).blk t).view.emb (ix2 k q)) = _
    rw [hw]
    refine congrArg w (funext fun a => Fin.ext ?_)
    match a with
    | ⟨0, _⟩ => show win1_4.index t (0 : Fin 2) * 128 + 1 * k.val = k.val; omega
    | ⟨1, _⟩ => show win1_4.index t (1 : Fin 2) * 40 + 1 * q.val = q.val; omega
  rw [hiddenBlock_at, h1, h2, h3, h4, h5]
  rfl

/-- An entry is in point t's block iff its row is among the block's rows (the block has all the columns). -/
theorem mem_block (t : Fin cfg1.N) (i : S100000x40.Idx) :
    i ∈ ((cfg1.win 5).blk t).view.set ↔ ∀ a : Fin 2, win1_5.index t a * S10000x40.size a ≤ (i a).val ∧ (i a).val < win1_5.index t a * S10000x40.size a + S10000x40.size a := by
  show i ∈ ((View.whole main_v43).slice (win1_5.rect t)).set ↔ _
  rw [View.set_slice_whole, Rect.mem_set_unit]
  exact Iff.rfl

/-- Every entry of the result is in the block of the point its row's block names. -/
theorem covered (i : S100000x40.Idx) :
    ∃ t : Fin cfg1.N, (cfg1.win 5).flush t = true ∧ i ∈ ((cfg1.win 5).blk t).view.set := by
  have hi0 : (i 0).val < 100000 := (i 0).isLt
  have hi1 : (i 1).val < 40 := (i 1).isLt
  have hN : cfg1.N = 10 := N_1
  let t : Fin cfg1.N := ⟨(i 0).val / 10000, by rw [hN]; omega⟩
  obtain ⟨e0, e1, e2, e3, e4, e5, e6, e7, e8, e9, e10⟩ := block_indices t
  have ht : t.val = (i 0).val / 10000 := rfl
  refine ⟨t, flush1_5 t, ?_⟩
  rw [mem_block]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 40 ≤ (i 1).val ∧ (i 1).val < win1_5.index t (1 : Fin 2) * 40 + 40; omega

/-- After the grid the result array holds the whole second product. -/
theorem array_eq (hagg : V c main_v42 = agg) (hxw : V c main_v28 = xw)
    (hsn : ∀ p : Fin 100000, V c main_v27 (ix2 p (0 : Fin 1)) = s (ix1 p)) (hb : V c main_arg3 = b) (hw : V c main_arg4 = w) :
    (dat1 V c).arrAt 5 cfg1.N = layered agg xw s b w :=
  (dat1 V c).arrAt_eq_of_cover 5 _ (fun t _ => flushed_eq V c agg xw s b w hagg hxw hsn hb hw t) covered

end

end Cert.KernelIdeal.Rows1

end
-- ==== Proof.Region2.lean ====
/-
  The last grid: the second layer's combination, row block by row block.

  Fifty grid points; point t takes rows 2000·t … 2000·t + 1999 of the aggregated messages [100000, 40], of the second
  product [100000, 40] and of the self-loop column [100000, 1], and the whole bias [40], and writes the same rows of
  agg(i, j) + xw(i, j) · s(i) + b(j). An entry depends on its own row and column only, so the blocks side by side are the
  whole array computed entry by entry.
-/
import proofs.«165699_j61048665145867_2_alg».proof.Proof.Gen.KernelIdeal.Frame
import proofs.«165699_j61048665145867_2_alg».proof.Proof.LibLayout
import Idealize.ShloMosaic.Lib.Pipeline.Value
import Idealize.ShloMosaic.Lib.ValueIdx
import Idealize.ShloMosaic.Lib.ValueLayout

set_option maxRecDepth 16384

noncomputable section

namespace Cert.KernelIdeal.Rows2

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The whole combination, entry by entry: the aggregate, plus the product entry scaled by its row's self-loop weight, plus
    its column's bias. -/
def combined (agg xw : (⟨2, ![100000, 40]⟩ : Shape).Idx → EReal) (s : (⟨1, ![100000]⟩ : Shape).Idx → EReal)
    (b : (⟨1, ![40]⟩ : Shape).Idx → EReal) : (⟨2, ![100000, 40]⟩ : Shape).Idx → EReal :=
  fun i => (agg i + xw i * s (ix1 (⟨(i 0).val, idx2_lt0 i⟩ : Fin 100000))) + b (ix1 (⟨(i 1).val, idx2_lt1 i⟩ : Fin 40))

/-- The block's combination at an entry (the change of float format is the identity on extended reals; the recasts to the
    same shape do nothing). -/
theorem block_at (xw : Vec Ideal S2000x40 .bf16) (agg : Vec Ideal S2000x40 .f32) (sn : Vec Ideal S2000x1 .f32) (b : Vec Ideal S40 .f32)
    (p : Fin 2000) (q : Fin 40) :
    k2_pay1 (F := Ideal) xw agg sn b (ix2 p q) = (agg (ix2 p q) + xw (ix2 p q) * sn (ix2 p (0 : Fin 1))) + b (ix1 q) := by
  unfold k2_pay1
  show (shapeCast S2000x40 agg shapeCasts_S2000x40_S2000x40 (ix2 p q)
      + shapeCast S2000x40 xw shapeCasts_S2000x40_S2000x40 (ix2 p q)
        * broadcastTo S2000x40 (shapeCast S2000x1 sn shapeCasts_S2000x1_S2000x1) broadcasts_S2000x1_S2000x40 (ix2 p q))
      + broadcastTo S2000x40 (shapeCast S1x40 b shapeCasts_S40_S1x40) broadcasts_S1x40_S2000x40 (ix2 p q) = _
  rw [shapeCast_self, shapeCast_self, shapeCast_self, broadcastTo_a1_ab_apply, broadcastTo_1b_ab_apply, shapeCast_a_1a_apply]

theorem zero_offsets : (![0, 0] : Fin 2 → Nat) = fun _ => 0 := funext fun a => by fin_cases a <;> rfl
theorem zero_offset : (![0] : Fin 1 → Nat) = fun _ => 0 := funext fun a => by fin_cases a; rfl

/-- Where the windows' blocks sit, decided over the fifty points: block t of the rows for the three row-blocked inputs and
    the result, the whole vector for the bias. -/
theorem block_indices : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

section
variable (V : (c : Dev nD) → (b : Ref sig .tc) → Buf (Elt Ideal) ((c : Thread nD τ).loc b))
variable (c : Dev nD)
  (agg xw : (⟨2, ![100000, 40]⟩ : Shape).Idx → EReal) (s : (⟨1, ![100000]⟩ : Shape).Idx → EReal)
  (b : (⟨1, ![40]⟩ : Shape).Idx → EReal)

/-- What point t writes back is block t of the whole combination of the arrays the grid finds: the aggregated messages, the
    second product, the self-loop weights as a column, the bias. -/
theorem flushed_eq (hagg : V c main_v57 = agg) (hxw : V c main_v43 = xw)
    (hsn : ∀ p : Fin 100000, V c main_v27 (ix2 p (0 : Fin 1)) = s (ix1 p)) (hb : V c main_arg5 = b) (t : Fin cfg2.N) :
    (dat2 V c).flushed 4 t = ((cfg2.win 4).blk t).view.read (Elt Ideal) (combined agg xw s b) := by
  show (cfg2.win 4).cut (grid2.coords t) ((dat2 V c).after 4 t) = _
  rw [after2_4]
  unfold out2_4
  rw [View.canon_unit_zero zero_offsets]
  simp only [View.ld_unit_zero (S := S2000x40) zero_offsets, View.ld_unit_zero (S := S2000x1) zero_offsets,
    View.ld_unit_zero (S := S40) zero_offset]
  obtain ⟨e0, e1, e2, e3, e4, e5, e6, e7, e8⟩ := block_indices t
  funext j
  obtain ⟨p, q, rfl⟩ : ∃ (p : Fin 2000) (q : Fin 40), j = ix2 p q := ⟨j 0, j 1, eq_ix2 j⟩
  show k2_pay1 (F := Ideal) (iblk2 V c 1 t) (iblk2 V c 0 t) (iblk2 V c 2 t) (iblk2 V c 3 t) (ix2 p q)
    = combined agg xw s b (((cfg2.win 4).blk t).view.emb (ix2 p q))
  have htl : t.val < 50 := lt_of_lt_of_eq t.isLt N_2
  have hrow : t.val * 2000 + p.val < 100000 := by have := p.isLt; omega
  have hemb : ((cfg2.win 4).blk t).view.emb (ix2 p q) = ix2 (⟨t.val * 2000 + p.val, hrow⟩ : Fin 100000) q := by
    funext a; apply Fin.ext
    match a with
    | ⟨0, _⟩ => show win2_4.index t (0 : Fin 2) * 2000 + 1 * p.val = t.val * 2000 + p.val; omega
    | ⟨1, _⟩ => show win2_4.index t (1 : Fin 2) * 40 + 1 * q.val = q.val; omega
  have h1 : iblk2 V c 0 t (ix2 p q) = agg (ix2 (⟨t.val * 2000 + p.val, hrow⟩ : Fin 100000) q) := by
    show V c main_v57 (((cfg2.win 0).blk t).view.emb (ix2 p q)) = _
    rw [hagg]
    refine congrArg agg (funext fun a => Fin.ext ?_)
    match a with
    | ⟨0, _⟩ => show win2_0.index t (0 : Fin 2) * 2000 + 1 * p.val = t.val * 2000 + p.val; omega
    | ⟨1, _⟩ => show win2_0.index t (1 : Fin 2) * 40 + 1 * q.val = q.val; omega
  have h2 : iblk2 V c 1 t (ix2 p q) = xw (ix2 (⟨t.val * 2000 + p.val, hrow⟩ : Fin 100000) q) := by
    show V c main_v43 (((cfg2.win 1).blk t).view.emb (ix2 p q)) = _
    rw [hxw]
    refine congrArg xw (funext fun a => Fin.ext ?_)
    match a with
    | ⟨0, _⟩ => show win2_1.index t (0 : Fin 2) * 2000 + 1 * p.val = t.val * 2000 + p.val; omega
    | ⟨1, _⟩ => show win2_1.index t (1 : Fin 2) * 40 + 1 * q.val = q.val; omega
  have h3 : iblk2 V c 2 t (ix2 p (0 : Fin 1)) = s (ix1 (⟨t.val * 2000 + p.val, hrow⟩ : Fin 100000)) := by
    show V c main_v27 (((cfg2.win 2).blk t).view.emb (ix2 p (0 : Fin 1))) = _
    have e : ((cfg2.win 2).blk t).view.emb (ix2 p (0 : Fin 1)) = ix2 (⟨t.val * 2000 + p.val, hrow⟩ : Fin 100000) (0 : Fin 1) := by
      funext a; apply Fin.ext
      match a with
      | ⟨0, _⟩ => show win2_2.index t (0 : Fin 2) * 2000 + 1 * p.val = t.val * 2000 + p.val; omega
      | ⟨1, _⟩ => show win2_2.index t (1 : Fin 2) * 1 + 1 * 0 = 0; omega
    rw [e, hsn]
  have h4 : iblk2 V c 3 t (ix1 q) = b (ix1 q) := by
    show V c main_arg5 (((cfg2.win 3).blk t).view.emb (ix1 q)) = _
    rw [hb]
    refine congrArg b (funext fun a => Fin.ext ?_)
    match a with
    | ⟨0, _⟩ => show win2_3.index t (0 : Fin 1) * 40 + 1 * q.val = q.val; omega
  rw [block_at, h1, h2, h3, h4, hemb]
  rfl

/-- An entry is in point t's block iff its row is among the block's rows (the block has all the columns). -/
theorem mem_block (t : Fin cfg2.N) (i : S100000x40.Idx) :
    i ∈ ((cfg2.win 4).blk t).view.set ↔ ∀ a : Fin 2, win2_4.index t a * S2000x40.size a ≤ (i a).val ∧ (i a).val < win2_4.index t a * S2000x40.size a + S2000x40.size a := by
  show i ∈ ((View.whole main_v58).slice (win2_4.rect t)).set ↔ _
  rw [View.set_slice_whole, Rect.mem_set_unit]
  exact Iff.rfl

/-- Every entry of the result is in the block of the point its row's block names. -/
theorem covered (i : S100000x40.Idx) :
    ∃ t : Fin cfg2.N, (cfg2.win 4).flush t = true ∧ i ∈ ((cfg2.win 4).blk t).view.set := by
  have hi0 : (i 0).val < 100000 := (i 0).isLt
  have hi1 : (i 1).val < 40 := (i 1).isLt
  have hN : cfg2.N = 50 := N_2
  let t : Fin cfg2.N := ⟨(i 0).val / 2000, by rw [hN]; omega⟩
  obtain ⟨e0, e1, e2, e3, e4, e5, e6, e7, e8⟩ := block_indices t
  have ht : t.val = (i 0).val / 2000 := rfl
  refine ⟨t, flush2_4 t, ?_⟩
  rw [mem_block]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 40 ≤ (i 1).val ∧ (i 1).val < win2_4.index t (1 : Fin 2) * 40 + 40; omega

/-- After the grid the result array holds the whole combination. -/
theorem array_eq (hagg : V c main_v57 = agg) (hxw : V c main_v43 = xw)
    (hsn : ∀ p : Fin 100000, V c main_v27 (ix2 p (0 : Fin 1)) = s (ix1 p)) (hb : V c main_arg5 = b) :
    (dat2 V c).arrAt 4 cfg2.N = combined agg xw s b :=
  (dat2 V c).arrAt_eq_of_cover 4 _ (fun t _ => flushed_eq V c agg xw s b hagg hxw hsn hb t) covered

end

end Cert.KernelIdeal.Rows2

end
-- ==== Proof.Bridge.lean ====
/-
  The reference's stages, read entry by entry, are the whole-array functions of the two later grids.

  The reference forms the first layer's output and the final result by whole-array operations: broadcasts of the self-loop
  weights along rows and of the biases along columns, entrywise products and sums, a clamp at zero, a product of matrices.
  Read at an entry these are the same sums and products, in the same order, as the entry-by-entry functions that describe
  what the grids' blocks leave: no law of arithmetic is used, only where each broadcast reads its operand.
-/
import proofs.«165699_j61048665145867_2_alg».proof.Proof.Gen.ReferenceIdeal.Read
import proofs.«165699_j61048665145867_2_alg».proof.Proof.Region1
import proofs.«165699_j61048665145867_2_alg».proof.Proof.Region2

set_option maxRecDepth 16384

noncomputable section

open scoped BigOperators

namespace Cert.RefStages

open Idealize.ShloMosaic Idealize.ShloMosaic.ValueIdx
open Cert.ReferenceIdeal Cert.ReferenceIdeal.Read

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x40, .f32⟩ : BufTy).Contents (Elt Ideal)) (x5 : (⟨S40, .f32⟩ : BufTy).Contents (Elt Ideal))

/-- The second product of the reference is the entry-by-entry second product of its aggregate, its first product, its
    self-loop weights, the bias and the weights. -/
theorem second_product :
    val_main_v53 (F := Ideal) x0 x1 x2 x3 x4
      = Cert.KernelIdeal.Rows1.layered (val_main_v44 (F := Ideal) x0 x1 x2) (val_main_v31 (F := Ideal) x0 x2)
          (val_main_v30 (F := Ideal) x1) x3 x4 := by
  funext i
  rw [val_main_v53_apply]
  unfold Cert.KernelIdeal.Rows1.layered
  refine Finset.sum_congr rfl fun k _ => ?_
  have el : lidx_main_v53 i k = ix2 (⟨(i 0).val, idx2_lt0 i⟩ : Fin 100000) k :=
    funext fun a => match a with | ⟨0, _⟩ => rfl | ⟨1, _⟩ => rfl
  have er : ridx_main_v53 i k = ix2 k (⟨(i 1).val, idx2_lt1 i⟩ : Fin 40) :=
    funext fun a => match a with | ⟨0, _⟩ => rfl | ⟨1, _⟩ => rfl
  rw [el, er, val_main_v52_apply, val_main_v51_apply, val_main_v48_apply, val_main_v47_apply, val_main_v50_apply,
    val_main_v49_apply, val_main_v46_apply, val_main_v45_apply, val_main_call0_v0_apply, val_main_call0_cst_apply]
  have es : idx_main_v45 (idx_main_v46 (ix2 (⟨(i 0).val, idx2_lt0 i⟩ : Fin 100000) k)) = ix1 (⟨(i 0).val, idx2_lt0 i⟩ : Fin 100000) :=
    funext fun a => match a with | ⟨0, _⟩ => rfl
  have eb : idx_main_v49 (idx_main_v50 (ix2 (⟨(i 0).val, idx2_lt0 i⟩ : Fin 100000) k)) = ix1 k :=
    funext fun a => match a with | ⟨0, _⟩ => rfl
  rw [es, eb]
  generalize val_main_v44 (F := Ideal) x0 x1 x2 = A
  generalize val_main_v31 (F := Ideal) x0 x2 = B
  generalize val_main_v30 (F := Ideal) x1 = C
  rfl

/-- The reference's result is the entry-by-entry combination of its second aggregate, its second product, its self-loop
    weights and the bias. -/
theorem result :
    val_main_v73 (F := Ideal) x0 x1 x2 x3 x4 x5
      = Cert.KernelIdeal.Rows2.combined (val_main_v66 (F := Ideal) x0 x1 x2 x3 x4) (val_main_v53 (F := Ideal) x0 x1 x2 x3 x4)
          (val_main_v30 (F := Ideal) x1) x5 := by
  funext i
  rw [val_main_v73_apply, val_main_v70_apply, val_main_v69_apply, val_main_v72_apply, val_main_v71_apply,
    val_main_v68_apply, val_main_v67_apply]
  unfold Cert.KernelIdeal.Rows2.combined
  have es : idx_main_v67 (idx_main_v68 i) = ix1 (⟨(i 0).val, idx2_lt0 i⟩ : Fin 100000) :=
    funext fun a => match a with | ⟨0, _⟩ => rfl
  have eb : idx_main_v71 (idx_main_v72 i) = ix1 (⟨(i 1).val, idx2_lt1 i⟩ : Fin 40) :=
    funext fun a => match a with | ⟨0, _⟩ => rfl
  rw [es, eb]
  generalize val_main_v66 (F := Ideal) x0 x1 x2 x3 x4 = A
  generalize val_main_v53 (F := Ideal) x0 x1 x2 x3 x4 = B
  generalize val_main_v30 (F := Ideal) x1 = C
  rfl

end Cert.RefStages

end
-- ==== Proof.LibColumn.lean ====
/-
  A vector as a one-column matrix, read at an index. An array of `a` entries recast to `a` rows of one column holds at
  row `p` (whatever the column coordinate, which can only be 0) the operand's entry `p`: row-major order counts the same
  entries in the same order on both sides.
-/
import Idealize.ShloMosaic.Lib.Pipeline.Value
import Idealize.ShloMosaic.Lib.ValueLayout

namespace Idealize.ShloMosaic.ValueIdx

open Idealize.ShloMosaic

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.Stages.lean ====
/-
  What each boundary of the run holds, as the reference's stages of the arguments.

  The kernel's whole-array operations between its grids are the reference's own operations, in the same order, on the same
  operands: the degrees and their inverse square roots, the edge weights, the gathered rows scaled and scattered. So once a
  grid's result is known to be the reference's array, the next stretch's results are the reference's next stages — the
  composed terms are the same operations of the same arrays (a change of float format is the identity on extended
  reals) — and nothing of a stretch has to be read at an index. A buffer that a stretch or a grid does not write keeps what
  it held.
-/
import proofs.«165699_j61048665145867_2_alg».proof.Proof.Gen.KernelIdeal.Frame
import proofs.«165699_j61048665145867_2_alg».proof.Proof.Gen.ReferenceIdeal.Read
import proofs.«165699_j61048665145867_2_alg».proof.Proof.Region0
import proofs.«165699_j61048665145867_2_alg».proof.Proof.Region1
import proofs.«165699_j61048665145867_2_alg».proof.Proof.Region2
import proofs.«165699_j61048665145867_2_alg».proof.Proof.Bridge
import proofs.«165699_j61048665145867_2_alg».proof.Proof.LibColumn
import Idealize.ShloMosaic.Lib.StableHlo.Run
import Idealize.ShloMosaic.Lib.ValueIdx

set_option maxRecDepth 16384

noncomputable section

namespace Cert.KernelIdeal.Stages

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg) (c : Dev nD)

/-! ## After the first stretch: the edge list's two rows, the edge weights, the self-loop weights -/

set_option maxHeartbeats 4000000 in
theorem W1_v1 : W1 m ρ c (Proc.devRef .tc main_v1) = Cert.ReferenceIdeal.Read.val_main_v1 (F := Ideal) (m ((c.tc : Thread nD τ).loc main_arg1)) := by
  show StableHlo.after hostOps0 (W0 m ρ c) (Proc.devRef .tc main_v1) = _
  after_results_simp
  rfl

set_option maxHeartbeats 4000000 in
theorem W1_v3 : W1 m ρ c (Proc.devRef .tc main_v3) = Cert.ReferenceIdeal.Read.val_main_v3 (F := Ideal) (m ((c.tc : Thread nD τ).loc main_arg1)) := by
  show StableHlo.after hostOps0 (W0 m ρ c) (Proc.devRef .tc main_v3) = _
  after_results_simp
  rfl

set_option maxHeartbeats 4000000 in
theorem W1_v25 : W1 m ρ c (Proc.devRef .tc main_v25) = Cert.ReferenceIdeal.Read.val_main_v29 (F := Ideal) (m ((c.tc : Thread nD τ).loc main_arg1)) := by
  show StableHlo.after hostOps0 (W0 m ρ c) (Proc.devRef .tc main_v25) = _
  after_results_simp
  rfl

set_option maxHeartbeats 4000000 in
theorem W1_v27_eq : W1 m ρ c (Proc.devRef .tc main_v27)
    = shapeCast S100000x1 (Cert.ReferenceIdeal.Read.val_main_v30 (F := Ideal) (m ((c.tc : Thread nD τ).loc main_arg1))) shapeCasts_S100000_S100000x1 := by
  show StableHlo.after hostOps0 (W0 m ρ c) (Proc.devRef .tc main_v27) = _
  after_results_simp
  rfl

/-- The self-loop weights were recast to a column: row p of the column is weight p. -/
theorem W1_v27 (p : Fin 100000) : W1 m ρ c (Proc.devRef .tc main_v27) (ix2 p (0 : Fin 1)) = Cert.ReferenceIdeal.Read.val_main_v30 (F := Ideal) (m ((c.tc : Thread nD τ).loc main_arg1)) (ix1 p) := by
  rw [W1_v27_eq]
  exact shapeCast_a_a1_apply _ _ p 0

set_option maxHeartbeats 4000000 in
theorem W1_arg0 : W1 m ρ c (Proc.devRef .tc main_arg0) = (m ((c.tc : Thread nD τ).loc main_arg0)) := by
  show StableHlo.after hostOps0 (W0 m ρ c) (Proc.devRef .tc main_arg0) = _
  after_results_simp

set_option maxHeartbeats 4000000 in
theorem W1_arg2 : W1 m ρ c (Proc.devRef .tc main_arg2) = (m ((c.tc : Thread nD τ).loc main_arg2)) := by
  show StableHlo.after hostOps0 (W0 m ρ c) (Proc.devRef .tc main_arg2) = _
  after_results_simp

set_option maxHeartbeats 4000000 in
theorem W1_arg3 : W1 m ρ c (Proc.devRef .tc main_arg3) = (m ((c.tc : Thread nD τ).loc main_arg3)) := by
  show StableHlo.after hostOps0 (W0 m ρ c) (Proc.devRef .tc main_arg3) = _
  after_results_simp

set_option maxHeartbeats 4000000 in
theorem W1_arg4 : W1 m ρ c (Proc.devRef .tc main_arg4) = (m ((c.tc : Thread nD τ).loc main_arg4)) := by
  show StableHlo.after hostOps0 (W0 m ρ c) (Proc.devRef .tc main_arg4) = _
  after_results_simp

set_option maxHeartbeats 4000000 in
theorem W1_arg5 : W1 m ρ c (Proc.devRef .tc main_arg5) = (m ((c.tc : Thread nD τ).loc main_arg5)) := by
  show StableHlo.after hostOps0 (W0 m ρ c) (Proc.devRef .tc main_arg5) = _
  after_results_simp

/-! ## After the first grid: the first product -/

theorem W2_v28 : W2 m ρ c (Proc.devRef .tc main_v28) = Cert.ReferenceIdeal.Read.val_main_v31 (F := Ideal) (m ((c.tc : Thread nD τ).loc main_arg0)) (m ((c.tc : Thread nD τ).loc main_arg2)) :=
  (W2_arr m ρ c 2).trans (Cert.KernelIdeal.Rows0.array_eq (V1 m ρ) c _ _ (W1_arg0 m ρ c) (W1_arg2 m ρ c))

theorem W2_v1 : W2 m ρ c (Proc.devRef .tc main_v1) = Cert.ReferenceIdeal.Read.val_main_v1 (F := Ideal) (m ((c.tc : Thread nD τ).loc main_arg1)) :=
  (W2_of_ne m ρ c main_v1 (by decide)).trans (W1_v1 m ρ c)

theorem W2_v3 : W2 m ρ c (Proc.devRef .tc main_v3) = Cert.ReferenceIdeal.Read.val_main_v3 (F := Ideal) (m ((c.tc : Thread nD τ).loc main_arg1)) :=
  (W2_of_ne m ρ c main_v3 (by decide)).trans (W1_v3 m ρ c)

theorem W2_v25 : W2 m ρ c (Proc.devRef .tc main_v25) = Cert.ReferenceIdeal.Read.val_main_v29 (F := Ideal) (m ((c.tc : Thread nD τ).loc main_arg1)) :=
  (W2_of_ne m ρ c main_v25 (by decide)).trans (W1_v25 m ρ c)

theorem W2_v27 (p : Fin 100000) : W2 m ρ c (Proc.devRef .tc main_v27) (ix2 p (0 : Fin 1)) = Cert.ReferenceIdeal.Read.val_main_v30 (F := Ideal) (m ((c.tc : Thread nD τ).loc main_arg1)) (ix1 p) :=
  (congrFun (W2_of_ne m ρ c main_v27 (by decide)) _).trans (W1_v27 m ρ c p)

theorem W2_arg3 : W2 m ρ c (Proc.devRef .tc main_arg3) = (m ((c.tc : Thread nD τ).loc main_arg3)) :=
  (W2_of_ne m ρ c main_arg3 (by decide)).trans (W1_arg3 m ρ c)

theorem W2_arg4 : W2 m ρ c (Proc.devRef .tc main_arg4) = (m ((c.tc : Thread nD τ).loc main_arg4)) :=
  (W2_of_ne m ρ c main_arg4 (by decide)).trans (W1_arg4 m ρ c)

theorem W2_arg5 : W2 m ρ c (Proc.devRef .tc main_arg5) = (m ((c.tc : Thread nD τ).loc main_arg5)) :=
  (W2_of_ne m ρ c main_arg5 (by decide)).trans (W1_arg5 m ρ c)

/-! ## After the second stretch: the first aggregate -/

set_option maxHeartbeats 4000000 in
theorem W3_v42 : W3 m ρ c (Proc.devRef .tc main_v42) = Cert.ReferenceIdeal.Read.val_main_v44 (F := Ideal) (m ((c.tc : Thread nD τ).loc main_arg0)) (m ((c.tc : Thread nD τ).loc main_arg1)) (m ((c.tc : Thread nD τ).loc main_arg2)) := by
  show StableHlo.after hostOps1 (W2 m ρ c) (Proc.devRef .tc main_v42) = _
  after_results_simp
  rw [W2_v28, W2_v1, W2_v3, W2_v25]
  rfl

set_option maxHeartbeats 4000000 in
theorem W3_v28 : W3 m ρ c (Proc.devRef .tc main_v28) = Cert.ReferenceIdeal.Read.val_main_v31 (F := Ideal) (m ((c.tc : Thread nD τ).loc main_arg0)) (m ((c.tc : Thread nD τ).loc main_arg2)) := by
  show StableHlo.after hostOps1 (W2 m ρ c) (Proc.devRef .tc main_v28) = _
  after_results_simp
  exact W2_v28 m ρ c

set_option maxHeartbeats 4000000 in
theorem W3_v1 : W3 m ρ c (Proc.devRef .tc main_v1) = Cert.ReferenceIdeal.Read.val_main_v1 (F := Ideal) (m ((c.tc : Thread nD τ).loc main_arg1)) := by
  show StableHlo.after hostOps1 (W2 m ρ c) (Proc.devRef .tc main_v1) = _
  after_results_simp
  exact W2_v1 m ρ c

set_option maxHeartbeats 4000000 in
theorem W3_v3 : W3 m ρ c (Proc.devRef .tc main_v3) = Cert.ReferenceIdeal.Read.val_main_v3 (F := Ideal) (m ((c.tc : Thread nD τ).loc main_arg1)) := by
  show StableHlo.after hostOps1 (W2 m ρ c) (Proc.devRef .tc main_v3) = _
  after_results_simp
  exact W2_v3 m ρ c

set_option maxHeartbeats 4000000 in
theorem W3_v25 : W3 m ρ c (Proc.devRef .tc main_v25) = Cert.ReferenceIdeal.Read.val_main_v29 (F := Ideal) (m ((c.tc : Thread nD τ).loc main_arg1)) := by
  show StableHlo.after hostOps1 (W2 m ρ c) (Proc.devRef .tc main_v25) = _
  after_results_simp
  exact W2_v25 m ρ c

set_option maxHeartbeats 4000000 in
theorem W3_arg3 : W3 m ρ c (Proc.devRef .tc main_arg3) = (m ((c.tc : Thread nD τ).loc main_arg3)) := by
  show StableHlo.after hostOps1 (W2 m ρ c) (Proc.devRef .tc main_arg3) = _
  after_results_simp
  exact W2_arg3 m ρ c

set_option maxHeartbeats 4000000 in
theorem W3_arg4 : W3 m ρ c (Proc.devRef .tc main_arg4) = (m ((c.tc : Thread nD τ).loc main_arg4)) := by
  show StableHlo.after hostOps1 (W2 m ρ c) (Proc.devRef .tc main_arg4) = _
  after_results_simp
  exact W2_arg4 m ρ c

set_option maxHeartbeats 4000000 in
theorem W3_arg5 : W3 m ρ c (Proc.devRef .tc main_arg5) = (m ((c.tc : Thread nD τ).loc main_arg5)) := by
  show StableHlo.after hostOps1 (W2 m ρ c) (Proc.devRef .tc main_arg5) = _
  after_results_simp
  exact W2_arg5 m ρ c

set_option maxHeartbeats 4000000 in
theorem W3_v27 (p : Fin 100000) : W3 m ρ c (Proc.devRef .tc main_v27) (ix2 p (0 : Fin 1)) = Cert.ReferenceIdeal.Read.val_main_v30 (F := Ideal) (m ((c.tc : Thread nD τ).loc main_arg1)) (ix1 p) := by
  show StableHlo.after hostOps1 (W2 m ρ c) (Proc.devRef .tc main_v27) (ix2 p (0 : Fin 1)) = _
  after_results_simp
  exact W2_v27 m ρ c p

/-! ## After the second grid: the second product -/

theorem W4_v43 : W4 m ρ c (Proc.devRef .tc main_v43) = Cert.ReferenceIdeal.Read.val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W4_arr m ρ c 5).trans ((Cert.KernelIdeal.Rows1.array_eq (V3 m ρ) c _ _ _ _ _ (W3_v42 m ρ c) (W3_v28 m ρ c) (W3_v27 m ρ c)
    (W3_arg3 m ρ c) (W3_arg4 m ρ c)).trans (Cert.RefStages.second_product _ _ _ _ _).symm)

theorem W4_v1 : W4 m ρ c (Proc.devRef .tc main_v1) = Cert.ReferenceIdeal.Read.val_main_v1 (F := Ideal) (m ((c.tc : Thread nD τ).loc main_arg1)) :=
  (W4_of_ne m ρ c main_v1 (by decide)).trans (W3_v1 m ρ c)

theorem W4_v3 : W4 m ρ c (Proc.devRef .tc main_v3) = Cert.ReferenceIdeal.Read.val_main_v3 (F := Ideal) (m ((c.tc : Thread nD τ).loc main_arg1)) :=
  (W4_of_ne m ρ c main_v3 (by decide)).trans (W3_v3 m ρ c)

theorem W4_v25 : W4 m ρ c (Proc.devRef .tc main_v25) = Cert.ReferenceIdeal.Read.val_main_v29 (F := Ideal) (m ((c.tc : Thread nD τ).loc main_arg1)) :=
  (W4_of_ne m ρ c main_v25 (by decide)).trans (W3_v25 m ρ c)

theorem W4_arg5 : W4 m ρ c (Proc.devRef .tc main_arg5) = (m ((c.tc : Thread nD τ).loc main_arg5)) :=
  (W4_of_ne m ρ c main_arg5 (by decide)).trans (W3_arg5 m ρ c)

/-- The second grid only reads the column of self-loop weights. -/
theorem W4_v27 (p : Fin 100000) : W4 m ρ c (Proc.devRef .tc main_v27) (ix2 p (0 : Fin 1)) = Cert.ReferenceIdeal.Read.val_main_v30 (F := Ideal) (m ((c.tc : Thread nD τ).loc main_arg1)) (ix1 p) :=
  (congrFun ((W4_arr m ρ c 2).trans (((dat1 (V3 m ρ) c).arrAt_in 2 rfl _).trans (A_eq1 (V3 m ρ) c 2))) _).trans (W3_v27 m ρ c p)

/-! ## After the third stretch: the second aggregate -/

set_option maxHeartbeats 4000000 in
theorem W5_v57 : W5 m ρ c (Proc.devRef .tc main_v57) = Cert.ReferenceIdeal.Read.val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps2 (W4 m ρ c) (Proc.devRef .tc main_v57) = _
  after_results_simp
  rw [W4_v43, W4_v1, W4_v3, W4_v25]
  rfl

set_option maxHeartbeats 4000000 in
theorem W5_v43 : W5 m ρ c (Proc.devRef .tc main_v43) = Cert.ReferenceIdeal.Read.val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps2 (W4 m ρ c) (Proc.devRef .tc main_v43) = _
  after_results_simp
  exact W4_v43 m ρ c

set_option maxHeartbeats 4000000 in
theorem W5_arg5 : W5 m ρ c (Proc.devRef .tc main_arg5) = (m ((c.tc : Thread nD τ).loc main_arg5)) := by
  show StableHlo.after hostOps2 (W4 m ρ c) (Proc.devRef .tc main_arg5) = _
  after_results_simp
  exact W4_arg5 m ρ c

set_option maxHeartbeats 4000000 in
theorem W5_v27 (p : Fin 100000) : W5 m ρ c (Proc.devRef .tc main_v27) (ix2 p (0 : Fin 1)) = Cert.ReferenceIdeal.Read.val_main_v30 (F := Ideal) (m ((c.tc : Thread nD τ).loc main_arg1)) (ix1 p) := by
  show StableHlo.after hostOps2 (W4 m ρ c) (Proc.devRef .tc main_v27) (ix2 p (0 : Fin 1)) = _
  after_results_simp
  exact W4_v27 m ρ c p

/-! ## After the third grid: the result -/

/-- The kernel's result array ends holding the reference's last stage of the kernel's own arguments. -/
theorem W6_v58 : W6 m ρ c (Proc.devRef .tc main_v58) = Cert.ReferenceIdeal.Read.val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W6_arr m ρ c 4).trans ((Cert.KernelIdeal.Rows2.array_eq (V5 m ρ) c _ _ _ _ (W5_v57 m ρ c) (W5_v43 m ρ c) (W5_v27 m ρ c)
    (W5_arg5 m ρ c)).trans (Cert.RefStages.result _ _ _ _ _ _).symm)

end Cert.KernelIdeal.Stages

end
-- ==== Proof.lean ====
/-
  A two-layer graph convolution, computed by three grids of row blocks among whole-array gathers and scatters, against the
  same network computed by whole-array operations only.

  Both programs form, from the edge list, the degrees (a scatter of ones plus one), their inverse square roots, an edge
  weight (the product of the two ends' roots) and a self-loop weight (the root squared); then twice: a product with a weight
  matrix, a gather of its rows along the edges scaled by the edge weights, a scatter-sum into the destinations, plus the
  product scaled by the self-loop weight, plus a bias — with a clamp at zero between the two layers. The kernel does the
  products and the entrywise combinations block of rows by block of rows (the first product; the first combination fused
  with the second product; the second combination), in reduced float formats that are the identity on extended reals.

  Since every block's rows depend on the same rows of its row-blocked inputs only, each grid leaves the array the
  whole-array operation computes (modules Region0, Region1, Region2), the stretches between the grids are the reference's own
  operations on those arrays (module Stages), and the reference's stages read entry by entry are the same sums and
  products in the same order (module Bridge). No law of arithmetic beyond that is needed, so the finiteness of the inputs
  is never used. The ideal pass rewrote nothing, so the kernel's idealization is its own text.
-/
import proofs.«165699_j61048665145867_2_alg».proof.Defs
import proofs.«165699_j61048665145867_2_alg».proof.Proof.Gen.Kernel
import proofs.«165699_j61048665145867_2_alg».proof.Proof.Gen.Kernel.Skeleton
import proofs.«165699_j61048665145867_2_alg».proof.Proof.Gen.Kernel.Launch
import proofs.«165699_j61048665145867_2_alg».proof.Proof.Gen.Kernel.Points
import proofs.«165699_j61048665145867_2_alg».proof.Proof.Gen.Kernel.Frame
import proofs.«165699_j61048665145867_2_alg».proof.Proof.Gen.KernelIdeal
import proofs.«165699_j61048665145867_2_alg».proof.Proof.Gen.KernelIdeal.Skeleton
import proofs.«165699_j61048665145867_2_alg».proof.Proof.Gen.KernelIdeal.Launch
import proofs.«165699_j61048665145867_2_alg».proof.Proof.Gen.KernelIdeal.Points
import proofs.«165699_j61048665145867_2_alg».proof.Proof.Gen.KernelIdeal.Frame
import proofs.«165699_j61048665145867_2_alg».proof.Proof.Gen.ReferenceIdeal
import proofs.«165699_j61048665145867_2_alg».proof.Proof.Gen.ReferenceIdeal.Run
import proofs.«165699_j61048665145867_2_alg».proof.Proof.Gen.ReferenceIdeal.Read
import proofs.«165699_j61048665145867_2_alg».proof.Proof.Gen.Pre_finite_inputs
import proofs.«165699_j61048665145867_2_alg».proof.Proof.KernelRun
import proofs.«165699_j61048665145867_2_alg».proof.Proof.Stages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no grid: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result at the reference's last stage of the arguments: the kernel's by the three grids and the
    stretches between them, the reference's by its own run; the arguments agree. -/
theorem algebraic : Cert.algebraic_KernelIdeal_ReferenceIdeal := by
  intro m ρ m' ρ' _ hagree
  refine ⟨fun c => Cert.ReferenceIdeal.Read.val_main_v73 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Stages.W6_v58 m ρ c), (h c).2⟩)
      (Cert.KernelIdeal.RunValue.run_result (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v73_eq, (hagree c).1, (hagree c).2.1, (hagree c).2.2.1,
      (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
